-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  bitsLt_bf16_f32 : FTy.bits .bf16 < FTy.bits .f32
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x1024.size a
  hwx0_0 : ∀ i : grid0.Coords, EltTy.bits .f32 = 32 ∨ (Rect.block (s := S4x2048x1024) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x1024.size a
  hwx0_1 : ∀ i : grid0.Coords, EltTy.bits .f32 = 32 ∨ (Rect.block (s := S4x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x1024.size a
  hwx0_2 : ∀ i : grid0.Coords, EltTy.bits .f32 = 32 ∨ (Rect.block (s := S4x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S4x2048x1024.size a
  hwx0_3 : ∀ i : grid0.Coords, EltTy.bits .f32 = 32 ∨ (Rect.block (s := S4x2048x1024) S1x512x128.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x16x64, .f32⟩
  | .hbm, ⟨4, _⟩ => ⟨S4x16x2048x64, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S4x16x2048x2048, .f32⟩
  | .hbm, ⟨10, _⟩ => ⟨S_, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | .hbm, ⟨29, _⟩ => ⟨S4x2048x16x64, .f32⟩
  | .hbm, ⟨30, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.SoftmaxRow.lean ====
/-
  One attention row on the extended reals, in the two arrangements the two programs use, and the law that joins them.

  A row has a query vector `q : D → EReal`, one key vector `k t : D → EReal` per position `t : T`, and one value
  `v t` per position. The SCORES are either `∑ d, (q d · c) · k t d` (the scale multiplied into the query before the
  product) or `(∑ d, q d · k t d) / r` (the product divided afterwards). With scores `s` and their maximum `m`, the
  row's result is either `(∑ t, exp (s t − m) · v t) / (∑ t, exp (s t − m))` (weights applied first, one division at
  the end) or `∑ t, (exp (s t − m) / ∑ t', exp (s t' − m)) · v t` (every weight normalised first).

  On real (finite) data the two score forms agree when `c = 1/8` and `r = 8`, and the two result forms agree for any
  real scores over a nonempty set of positions: the maximum of real scores is real, so every `exp (s t − m)` is a positive
  real, their sum is a positive real, and dividing a finite sum by it is dividing each term (distributivity, which on
  the extended reals needs exactly this finiteness).
-/
import Idealize.ShloMosaic.PureOps.Ideal
import Mathlib.Data.Finset.Fold

noncomputable section

namespace Cert.SoftmaxRow

open Idealize.ShloMosaic

variable {D T : Type} [Fintype D] [Fintype T]

/-- Scores with the scale `c` multiplied into the query first. -/
def scoreScaledQuery (c : EReal) (q : D → EReal) (k : T → D → EReal) (t : T) : EReal :=
  ∑ d, (q d * c) * k t d

/-- Scores with the product divided by `r` afterwards. -/
def scoreDivided (r : EReal) (q : D → EReal) (k : T → D → EReal) (t : T) : EReal :=
  Ideal.div (∑ d, q d * k t d) r

/-- Weights `exp (s t − max s)` applied to the values first, one division by their sum at the end. -/
def weightedThenNormalized (s v : T → EReal) : EReal :=
  Ideal.div (∑ t, Ideal.exp (s t - Finset.univ.fold max ⊥ s) * v t)
    (∑ t, Ideal.exp (s t - Finset.univ.fold max ⊥ s))

/-- Every weight divided by the sum of the weights first, then applied to the values. -/
def normalizedThenWeighted (s v : T → EReal) : EReal :=
  ∑ t, Ideal.div (Ideal.exp (s t - Finset.univ.fold max ⊥ s)) (∑ t', Ideal.exp (s t' - Finset.univ.fold max ⊥ s)) * v t

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- On real data, scaling the query by `1/8` before the product is dividing the product by `8`. -/
theorem score_forms_agree (q : D → ℝ) (k : T → D → ℝ) (t : T) :
    scoreScaledQuery (((1 / 8 : ℝ) : ℝ) : EReal) (fun d => (q d : EReal)) (fun t d => (k t d : EReal)) t
      = scoreDivided ((8 : ℝ) : EReal) (fun d => (q d : EReal)) (fun t d => (k t d : EReal)) t := by
  unfold scoreScaledQuery scoreDivided
  rw [Ideal.div_coe (by norm_num : (8 : ℝ) ≠ 0)]
  simp only [← EReal.coe_mul, coe_sum]
  refine congrArg _ ?_
  rw [Finset.sum_mul]
  exact Finset.sum_congr rfl fun d _ => by ring

/-- The divided scores of real data are real. -/
theorem scoreDivided_real (q : D → ℝ) (k : T → D → ℝ) (t : T) :
    scoreDivided ((8 : ℝ) : EReal) (fun d => (q d : EReal)) (fun t d => (k t d : EReal)) t
      = (((∑ d, q d * k t d) * (1 / 8) : ℝ) : EReal) := by
  unfold scoreDivided
  rw [Ideal.div_coe (by norm_num : (8 : ℝ) ≠ 0)]
  simp only [← EReal.coe_mul, coe_sum]

/-- The maximum of real scores over a nonempty set of positions (folded from `−∞`) is a real. -/
theorem fold_max_real [Nonempty T] (s : T → ℝ) :
    ∃ M : ℝ, Finset.univ.fold max (⊥ : EReal) (fun t => (s t : EReal)) = (M : EReal) := by
  obtain ⟨t0, _, ht0⟩ := Finset.exists_max_image Finset.univ s Finset.univ_nonempty
  refine ⟨s t0, le_antisymm ?_ ?_⟩
  · exact (Finset.fold_max_le _).mpr ⟨bot_le, fun x _ => EReal.coe_le_coe_iff.mpr (ht0 x (Finset.mem_univ x))⟩
  · exact (Finset.le_fold_max _).mpr (Or.inr ⟨t0, Finset.mem_univ t0, le_rfl⟩)

/-- For real scores and real values over a nonempty set of positions the two result forms are one number: the sum of
    the weights is a positive real, and dividing the weighted sum by it is dividing every term. -/
theorem result_forms_agree [Nonempty T] (s v : T → ℝ) :
    weightedThenNormalized (fun t => (s t : EReal)) (fun t => (v t : EReal))
      = normalizedThenWeighted (fun t => (s t : EReal)) (fun t => (v t : EReal)) := by
  obtain ⟨M, hM⟩ := fold_max_real s
  unfold weightedThenNormalized normalizedThenWeighted
  rw [hM]
  have hL : (∑ t, Real.exp (s t - M)) ≠ 0 :=
    (Finset.sum_pos (fun t _ => Real.exp_pos _) Finset.univ_nonempty).ne'
  simp only [← EReal.coe_sub, Ideal.exp_coe, ← EReal.coe_mul, coe_sum, Ideal.div_coe hL]
  refine congrArg _ ?_
  rw [Finset.sum_mul]
  exact Finset.sum_congr rfl fun t _ => by ring

end Cert.SoftmaxRow

end
-- ==== Proof.Consts.lean ====
/-
  The float constants the two programs spell, as the extended reals their patterns denote: the query scale `0.125` is
  the real `1/8`, the reference's `64.0` the real `64` whose square root is `8`, and the pattern of `−∞` is the bottom
  element, from which a maximum is folded.
-/
import Idealize.ShloMosaic.PureOps.Ideal
import Idealize.ShloMosaic.PureOps.Ideal.Laws

noncomputable section

namespace Cert.AttentionConsts

open Idealize.ShloMosaic

theorem ofBits_eighth : Ideal.ofBits .f32 0x3E000000#32 = (((1 / 8 : ℝ) : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := Ideal.ofBits_zero_f32

/-- `√64 = 8`, on the extended reals. -/
theorem sqrt_64 : Ideal.sqrt (Ideal.ofBits .f32 0x42800000#32) = ((8 : ℝ) : EReal) := by
  rw [ofBits_64, Ideal.sqrt_coe, if_neg (by norm_num)]
  refine congrArg _ ?_
  rw [show (64 : ℝ) = 8 ^ 2 by norm_num]
  exact Real.sqrt_sq (by norm_num)

end Cert.AttentionConsts

end
-- ==== Proof.KernelHead.lean ====
/-
  One head of the kernel's body, as a function of three matrices — the head's query rows `q : [512, 64]`, key rows
  `k : [2048, 64]` and value rows `v : [2048, 64]` — read at an entry `(r, d)`.

  The body scales the query by the constant `0.125`, multiplies by the transposed keys (`headScores`: entry `(r, t)` is
  `∑ d', (q (r, d') · 0.125) · k (t, d')`), takes each row's maximum and spreads it back over the row
  (`rowMaxSpread`), exponentiates the differences, sums each row, multiplies the exponentials by the values and
  divides by the row sums (`headFromScores`). Changes of float format are the identity at the extended reals.
  Read at `(r, d)` the result is Proof/SoftmaxRow.lean's `weightedThenNormalized` of the scaled-query scores of row
  `r` and column `d` of the values (`headOut_apply`).
-/
import proofs.«175225_j197568495758_2_alg».proof.Proof.Gen.KernelIdeal.Skeleton
import proofs.«175225_j197568495758_2_alg».proof.Proof.SoftmaxRow
import proofs.«175225_j197568495758_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadValue

open Cert.KernelIdeal Cert.KernelIdeal.Gen Idealize.ShloMosaic Idealize.ShloMosaic.ValueIdx Cert.SoftmaxRow

/-- The query scale the body multiplies in: the pattern of `0.125`. -/
abbrev queryScale : EReal := Ideal.ofBits .f32 0x3E000000#32

/-! ## The three stages as functions of matrices -/

/-- The scores of one head: the scaled query rows times the transposed key rows. -/
def headScores (q : FVec Ideal S512x64 .f32) (k : FVec Ideal S2048x64 .f32) : FVec Ideal S512x2048 .f32 :=
  matmul dot_S512x64_S64x2048_S512x2048_1_0_0_1_n_n none
    (truncf .bf16 (mulf q (broadcast S512x64 (Scalar.ofBits .f32 0x3E000000#32))) bitsLt_bf16_f32)
    (transpose S64x2048 [1, 0] (truncf .bf16 k bitsLt_bf16_f32) transposes_S2048x64_p1_0_S64x2048)
    (constant S512x2048 .f32 0x00000000#32)

/-- Each row's maximum, spread back over the row. -/
def rowMaxSpread (sc : FVec Ideal S512x2048 .f32) : FVec Ideal S512x2048 .f32 :=
  broadcastTo S512x2048
    (shapeCast S512x1 (multiReduction .maximumf [1] S512 sc 0xFF800000#32 reduces_S512x2048_S512 (.inl rfl) rfl) shapeCasts_S512_S512x1)
    broadcasts_S512x1_S512x2048

/-- From the scores and the spread maxima: exponentials, their products with the values, divided by the row sums. -/
def headFromScores (sc mx : FVec Ideal S512x2048 .f32) (v : FVec Ideal S2048x64 .bf16) : FVec Ideal S512x64 .f32 :=
  divf
    (matmul dot_S512x2048_S2048x64_S512x64_1_0_0_1_n_n none (truncf .bf16 (exp (subf sc mx)) bitsLt_bf16_f32) v
      (constant S512x64 .f32 0x00000000#32))
    (broadcastTo S512x64
      (shapeCast S512x1 (multiReduction .add [1] S512 (exp (subf sc mx)) 0x00000000#32 reduces_S512x2048_S512 (.inl rfl) rfl) shapeCasts_S512_S512x1)
      broadcasts_S512x1_S512x64)

/-- One head, whole. -/
def headOut (q : FVec Ideal S512x64 .f32) (k v : FVec Ideal S2048x64 .f32) : FVec Ideal S512x64 .f32 :=
  headFromScores (headScores q k) (rowMaxSpread (headScores q k)) (truncf .bf16 v bitsLt_bf16_f32)

/-! ## The two matrix products at an entry -/

theorem scoreProduct_lhs_row (j : S512x2048.Idx) (q : dot_S512x64_S64x2048_S512x2048_1_0_0_1_n_n.contr.Idx) :
    (dot_S512x64_S64x2048_S512x2048_1_0_0_1_n_n.lhsIdx j q 0).val = (j 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl

theorem scoreProduct_rhs_col (j : S512x2048.Idx) (q : dot_S512x64_S64x2048_S512x2048_1_0_0_1_n_n.contr.Idx) :
    (dot_S512x64_S64x2048_S512x2048_1_0_0_1_n_n.rhsIdx j q 1).val = (j 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

theorem valueProduct_lhs_row (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem valueProduct_rhs_col (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

theorem scoreProduct_apply {φ₁ φ₂ : FTy} (l : FVec Ideal S512x64 φ₁) (m : FVec Ideal S64x2048 φ₂) (r : Fin 512) (t : Fin 2048) :
    matmul dot_S512x64_S64x2048_S512x2048_1_0_0_1_n_n none l m (constant S512x2048 .f32 0x00000000#32) (ix2 r t)
      = ∑ d : Fin 64, l (ix2 r d) * m (ix2 d t) := by
  simp only [matmul]
  rw [Ideal.matmul_constant_zero_apply, ← Equiv.sum_comp (contrEquiv1 dot_S512x64_S64x2048_S512x2048_1_0_0_1_n_n 64 rfl rfl).symm]
  refine Finset.sum_congr rfl fun d _ => ?_
  have hd := contrEquiv1_symm_val dot_S512x64_S64x2048_S512x2048_1_0_0_1_n_n 64 rfl rfl d
  have el : dot_S512x64_S64x2048_S512x2048_1_0_0_1_n_n.lhsIdx (ix2 r t)
      ((contrEquiv1 dot_S512x64_S64x2048_S512x2048_1_0_0_1_n_n 64 rfl rfl).symm d) = ix2 r d := funext fun a => Fin.ext (by
    match a with
    | ⟨0, _⟩ => exact scoreProduct_lhs_row _ _
    | ⟨1, _⟩ => exact (dot_S512x64_S64x2048_S512x2048_1_0_0_1_n_n.lhsIdx_val_of_single rfl _ _).trans hd)
  have er : dot_S512x64_S64x2048_S512x2048_1_0_0_1_n_n.rhsIdx (ix2 r t)
      ((contrEquiv1 dot_S512x64_S64x2048_S512x2048_1_0_0_1_n_n 64 rfl rfl).symm d) = ix2 d t := funext fun a => Fin.ext (by
    match a with
    | ⟨0, _⟩ => exact (dot_S512x64_S64x2048_S512x2048_1_0_0_1_n_n.rhsIdx_val_of_single rfl _ _).trans hd
    | ⟨1, _⟩ => exact scoreProduct_rhs_col _ _)
  rw [el, er]

theorem valueProduct_apply {φ₁ φ₂ : FTy} (l : FVec Ideal S512x2048 φ₁) (m : FVec Ideal S2048x64 φ₂) (r : Fin 512) (d : Fin 64) :
    matmul dot_S512x2048_S2048x64_S512x64_1_0_0_1_n_n none l m (constant S512x64 .f32 0x00000000#32) (ix2 r d)
      = ∑ t : Fin 2048, l (ix2 r t) * m (ix2 t d) := by
  simp only [matmul]
  rw [Ideal.matmul_constant_zero_apply, ← Equiv.sum_comp (contrEquiv1 dot_S512x2048_S2048x64_S512x64_1_0_0_1_n_n 2048 rfl rfl).symm]
  refine Finset.sum_congr rfl fun t _ => ?_
  have ht := contrEquiv1_symm_val dot_S512x2048_S2048x64_S512x64_1_0_0_1_n_n 2048 rfl rfl t
  have el : dot_S512x2048_S2048x64_S512x64_1_0_0_1_n_n.lhsIdx (ix2 r d)
      ((contrEquiv1 dot_S512x2048_S2048x64_S512x64_1_0_0_1_n_n 2048 rfl rfl).symm t) = ix2 r t := funext fun a => Fin.ext (by
    match a with
    | ⟨0, _⟩ => exact valueProduct_lhs_row _ _
    | ⟨1, _⟩ => exact (dot_S512x2048_S2048x64_S512x64_1_0_0_1_n_n.lhsIdx_val_of_single rfl _ _).trans ht)
  have er : dot_S512x2048_S2048x64_S512x64_1_0_0_1_n_n.rhsIdx (ix2 r d)
      ((contrEquiv1 dot_S512x2048_S2048x64_S512x64_1_0_0_1_n_n 2048 rfl rfl).symm t) = ix2 t d := funext fun a => Fin.ext (by
    match a with
    | ⟨0, _⟩ => exact (dot_S512x2048_S2048x64_S512x64_1_0_0_1_n_n.rhsIdx_val_of_single rfl _ _).trans ht
    | ⟨1, _⟩ => exact valueProduct_rhs_col _ _)
  rw [el, er]

/-! ## The two row reductions at a row, and a column spread back over rows -/

/-- The reduced index `r` with position `t` put back is `(r, t)`. -/
theorem lift_row (h : S512x2048.Reduces [1] S512) (r : Fin 512) (t : Fin 2048) : h.lift (ix1 r) t = ix2 r t :=
  funext fun a => Fin.ext (by match a with | ⟨0, _⟩ => rfl | ⟨1, _⟩ => rfl)

theorem rowMax_apply (sc : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 sc 0xFF800000#32 h hφ hacc (ix1 r)
      = Finset.univ.fold max ⊥ (fun t : Fin 2048 => sc (ix2 r t)) := by
  refine (Ideal.multiReduction_maximumf_single sc 0xFF800000#32 h hφ hacc (ix1 r)).trans ?_
  have hf : (sc ∘ h.lift (ix1 r)) = fun t : Fin 2048 => sc (ix2 r t) := funext fun t => congrArg sc (lift_row h r t)
  rw [hf]
  exact congrArg (fun b : EReal => Finset.fold max b (fun t : Fin 2048 => sc (ix2 r t)) Finset.univ)
    Cert.AttentionConsts.ofBits_neg_inf

theorem rowSum_apply (p : FVec Ideal S512x2048 .f32) (h : S512x2048.Reduces [1] S512) (hφ : FKind.Formats .f32)
    (hacc : (0x00000000#32 : BitVec 32) = FKind.add.neutral .f32 hφ) (r : Fin 512) :
    multiReduction .add [1] S512 p 0x00000000#32 h hφ hacc (ix1 r) = ∑ t : Fin 2048, p (ix2 r t) := by
  refine (Ideal.multiReduction_add_single p 0x00000000#32 h hφ hacc (ix1 r)).trans ?_
  exact Finset.sum_congr rfl fun t _ => congrArg p (lift_row h r t)

/-- A vector of 512 entries made a column and spread over `n` columns reads, at `(r, t)`, entry `r`. -/
theorem columnSpread_apply {n : Nat} (w : FVec Ideal S512 .f32) (hc : S512.ShapeCasts S512x1)
    (hb : S512x1.Broadcasts ⟨2, ![512, n]⟩) (r : Fin 512) (t : Fin n) :
    broadcastTo ⟨2, ![512, n]⟩ (shapeCast S512x1 w hc) hb (ix2 r t) = w (ix1 r) := by
  refine (broadcastTo_apply (shapeCast S512x1 w hc) hb (ix2 r t) (ix2 r (0 : Fin 1)) (fun a => by
    match a with
    | ⟨0, _⟩ => show r.val = if (512 : Nat) = 1 then 0 else r.val; rw [if_neg (by decide)]
    | ⟨1, _⟩ => show 0 = if (1 : Nat) = 1 then 0 else t.val; rw [if_pos rfl])).trans ?_
  exact shapeCast_apply w hc (ix2 r (0 : Fin 1)) (ix1 r) (by
    rw [Shape.rowMajor_val_one, Shape.rowMajor_val_two]
    show r.val = r.val * 1 + 0
    omega)

/-! ## The stages at an entry -/

theorem headScores_apply (q : FVec Ideal S512x64 .f32) (k : FVec Ideal S2048x64 .f32) (r : Fin 512) (t : Fin 2048) :
    headScores q k (ix2 r t) = scoreScaledQuery queryScale (fun d => q (ix2 r d)) (fun t d => k (ix2 t d)) t := by
  unfold headScores scoreScaledQuery
  rw [scoreProduct_apply]
  refine Finset.sum_congr rfl fun d _ => ?_
  rw [transpose_ix2_apply]
  rfl

theorem rowMaxSpread_apply (sc : FVec Ideal S512x2048 .f32) (r : Fin 512) (t : Fin 2048) :
    rowMaxSpread sc (ix2 r t) = Finset.univ.fold max ⊥ (fun t' : Fin 2048 => sc (ix2 r t')) := by
  unfold rowMaxSpread
  exact (columnSpread_apply _ shapeCasts_S512_S512x1 broadcasts_S512x1_S512x2048 r t).trans
    (rowMax_apply sc reduces_S512x2048_S512 (.inl rfl) rfl r)

theorem headFromScores_apply (sc mx : FVec Ideal S512x2048 .f32) (v : FVec Ideal S2048x64 .bf16) (r : Fin 512) (d : Fin 64) :
    headFromScores sc mx v (ix2 r d)
      = Ideal.div (∑ t : Fin 2048, Ideal.exp (sc (ix2 r t) - mx (ix2 r t)) * v (ix2 t d))
          (∑ t : Fin 2048, Ideal.exp (sc (ix2 r t) - mx (ix2 r t))) := by
  unfold headFromScores
  rw [divf_apply, valueProduct_apply]
  refine congrArg (Ideal.div _) ?_
  exact (columnSpread_apply _ shapeCasts_S512_S512x1 broadcasts_S512x1_S512x64 r d).trans
    (rowSum_apply (exp (subf sc mx)) reduces_S512x2048_S512 (.inl rfl) rfl r)

/-- One head at an entry: the softmax-weighted mean of column `d` of the values, the scores those of row `r`. -/
theorem headOut_apply (q : FVec Ideal S512x64 .f32) (k v : FVec Ideal S2048x64 .f32) (r : Fin 512) (d : Fin 64) :
    headOut q k v (ix2 r d)
      = weightedThenNormalized (scoreScaledQuery queryScale (fun d' => q (ix2 r d')) (fun t d' => k (ix2 t d')))
          (fun t => v (ix2 t d)) := by
  unfold headOut weightedThenNormalized
  rw [headFromScores_apply]
  simp only [rowMaxSpread_apply, headScores_apply]
  rfl

end Cert.KernelIdeal.HeadValue

end
-- ==== Proof.KernelBlock.lean ====
/-
  What the kernel's body stores, from the three blocks it loads — a query block `[1, 512, 128]`, a key block and a
  value block `[1, 2048, 128]` —, read at an entry `(u, r, l)` of the stored block.

  The 128 lanes of a block are two heads of sixty-four lanes. The body cuts each block into its two halves of
  lanes, runs one head (Proof/KernelHead.lean) on each half and puts the two results side by side. So lane `l` of the
  result belongs to the head whose lanes start at `o = l / 64 · 64`, and the entry is the softmax-weighted mean of the
  value block's column `l`, the scores those of row `r` of the query block against the key block's rows, both over
  the lanes `o … o + 63`.
-/
import proofs.«175225_j197568495758_2_alg».proof.Proof.KernelHead

noncomputable section

namespace Cert.KernelIdeal.BlockValue

open Cert.KernelIdeal Cert.KernelIdeal.Gen Cert.KernelIdeal.HeadValue Idealize.ShloMosaic Idealize.ShloMosaic.ValueIdx
open Cert.SoftmaxRow

/-- The value the body stores, as a function of the three loaded blocks. -/
def bodyResult (X0 : Vec Ideal S1x512x128 .f32) (X1 X2 : Vec Ideal S1x2048x128 .f32) : FVec Ideal S1x512x128 .f32 :=
  k0_pay1 (k0_pay5 X0 X1 X2) (k0_pay6 X2) (k0_pay7 X0 X1) (k0_pay8 X0 X1)

/-- Sixty-four lanes of the query block, from lane `o`, as a matrix. -/
def queryLanes (o : Nat) (hs : S512x128.Slices ![0, o] S512x64) (X0 : Vec Ideal S1x512x128 .f32) : FVec Ideal S512x64 .f32 :=
  extractStridedSlice S512x64 ![0, o] (shapeCast S512x128 X0 shapeCasts_S1x512x128_S512x128) hs

/-- Sixty-four lanes of a key or value block, from lane `o`, as a matrix. -/
def rowLanes (o : Nat) (hs : S2048x128.Slices ![0, o] S2048x64) (X : Vec Ideal S1x2048x128 .f32) : FVec Ideal S2048x64 .f32 :=
  extractStridedSlice S2048x64 ![0, o] (shapeCast S2048x128 X shapeCasts_S1x2048x128_S2048x128) hs

/-- The body's result is the two heads' results side by side. -/
theorem bodyResult_eq (X0 : Vec Ideal S1x512x128 .f32) (X1 X2 : Vec Ideal S1x2048x128 .f32) :
    bodyResult X0 X1 X2
      = shapeCast S1x512x128
          (concatenate S512x128 1
            [⟨S512x64, headOut (queryLanes 0 slices_S512x128_o0_0_S512x64 X0) (rowLanes 0 slices_S2048x128_o0_0_S2048x64 X1)
                (rowLanes 0 slices_S2048x128_o0_0_S2048x64 X2)⟩,
             ⟨S512x64, headOut (queryLanes 64 slices_S512x128_o0_64_S512x64 X0) (rowLanes 64 slices_S2048x128_o0_64_S2048x64 X1)
                (rowLanes 64 slices_S2048x128_o0_64_S2048x64 X2)⟩]
            concatenates_S512x64_S512x64_S512x128_d1)
          shapeCasts_S512x128_S1x512x128 := rfl

theorem queryLanes_apply (o : Nat) (ho : o + 64 ≤ 128) (hs : S512x128.Slices ![0, o] S512x64) (X0 : Vec Ideal S1x512x128 .f32)
    (r : Fin 512) (d : Fin 64) :
    queryLanes o hs X0 (ix2 r d) = X0 (ix3 (0 : Fin 1) r (⟨o + d.val, by have := d.isLt; omega⟩ : Fin 128)) := by
  unfold queryLanes
  rw [slice2_axis1_apply o _ hs r d (⟨o + d.val, by have := d.isLt; omega⟩ : Fin 128) rfl, shapeCast_1ab_ab_apply]

theorem rowLanes_apply (o : Nat) (ho : o + 64 ≤ 128) (hs : S2048x128.Slices ![0, o] S2048x64) (X : Vec Ideal S1x2048x128 .f32)
    (t : Fin 2048) (d : Fin 64) :
    rowLanes o hs X (ix2 t d) = X (ix3 (0 : Fin 1) t (⟨o + d.val, by have := d.isLt; omega⟩ : Fin 128)) := by
  unfold rowLanes
  rw [slice2_axis1_apply o _ hs t d (⟨o + d.val, by have := d.isLt; omega⟩ : Fin 128) rfl, shapeCast_1ab_ab_apply]

/-- One head of the block, run on the lanes from `o`, at an entry. -/
theorem head_of_block (o : Nat) (ho : o + 64 ≤ 128) (hq : S512x128.Slices ![0, o] S512x64) (hk : S2048x128.Slices ![0, o] S2048x64)
    (X0 : Vec Ideal S1x512x128 .f32) (X1 X2 : Vec Ideal S1x2048x128 .f32) (r : Fin 512) (d : Fin 64) :
    headOut (queryLanes o hq X0) (rowLanes o hk X1) (rowLanes o hk X2) (ix2 r d)
      = weightedThenNormalized
          (scoreScaledQuery queryScale
            (fun d' : Fin 64 => X0 (ix3 (0 : Fin 1) r (⟨o + d'.val, by have := d'.isLt; omega⟩ : Fin 128)))
            (fun (t : Fin 2048) (d' : Fin 64) => X1 (ix3 (0 : Fin 1) t (⟨o + d'.val, by have := d'.isLt; omega⟩ : Fin 128))))
          (fun t : Fin 2048 => X2 (ix3 (0 : Fin 1) t (⟨o + d.val, by have := d.isLt; omega⟩ : Fin 128))) := by
  rw [headOut_apply]
  simp only [queryLanes_apply o ho, rowLanes_apply o ho]

/-- The first lane of the head that lane `l` of a block belongs to. -/
def headStart (l : Fin 128) : Nat := l.val / 64 * 64

theorem headStart_le (l : Fin 128) : headStart l + 64 ≤ 128 := by
  have := l.isLt; unfold headStart; omega

/-- Lane `d` of the head that lane `l` of a block belongs to. -/
def headLane (l : Fin 128) (d : Fin 64) : Fin 128 := ⟨headStart l + d.val, by have := headStart_le l; have := d.isLt; omega⟩

/-- THE BODY'S RESULT AT AN ENTRY. -/
theorem bodyResult_apply (X0 : Vec Ideal S1x512x128 .f32) (X1 X2 : Vec Ideal S1x2048x128 .f32) (u : Fin 1) (r : Fin 512) (l : Fin 128) :
    bodyResult X0 X1 X2 (ix3 u r l)
      = weightedThenNormalized
          (scoreScaledQuery queryScale
            (fun d : Fin 64 => X0 (ix3 (0 : Fin 1) r (headLane l d)))
            (fun (t : Fin 2048) (d : Fin 64) => X1 (ix3 (0 : Fin 1) t (headLane l d))))
          (fun t : Fin 2048 => X2 (ix3 (0 : Fin 1) t l)) := by
  rw [bodyResult_eq, shapeCast_ab_1ab_apply]
  by_cases hl : l.val < 64
  · have h0 : headStart l = 0 := by unfold headStart; omega
    rw [concatenate_pair_apply_left (1 : Fin S512x128.rank) _ _ concatenates_S512x64_S512x64_S512x128_d1 (ix2 r l) rfl
      (ix2 r (⟨l.val, hl⟩ : Fin 64)) (fun b => by match b with | ⟨0, _⟩ => rfl | ⟨1, _⟩ => rfl)]
    rw [head_of_block 0 (by omega)]
    have e1 : ∀ d : Fin 64, (⟨0 + d.val, by have := d.isLt; omega⟩ : Fin 128) = headLane l d := fun d =>
      Fin.ext (by show 0 + d.val = headStart l + d.val; rw [h0])
    have e2 : (⟨0 + (⟨l.val, hl⟩ : Fin 64).val, by omega⟩ : Fin 128) = l := Fin.ext (by show 0 + l.val = l.val; omega)
    simp only [e1, e2]
  · have h0 : headStart l = 64 := by have := l.isLt; unfold headStart; omega
    have hl' : l.val - 64 < 64 := by have := l.isLt; omega
    rw [concatenate_pair_apply_right (1 : Fin S512x128.rank) _ _ concatenates_S512x64_S512x64_S512x128_d1 (ix2 r l) rfl rfl
      (ix2 r (⟨l.val - 64, hl'⟩ : Fin 64))
      (fun b hb => by
        match b with
        | ⟨0, _⟩ => rfl
        | ⟨1, _⟩ => exact absurd rfl hb)
      (by show l.val - 64 + 64 = l.val; omega)]
    rw [head_of_block 64 (by omega)]
    have e1 : ∀ d : Fin 64, (⟨64 + d.val, by have := d.isLt; omega⟩ : Fin 128) = headLane l d := fun d =>
      Fin.ext (by show 64 + d.val = headStart l + d.val; rw [h0])
    have e2 : (⟨64 + (⟨l.val - 64, hl'⟩ : Fin 64).val, by omega⟩ : Fin 128) = l :=
      Fin.ext (by show 64 + (l.val - 64) = l.val; omega)
    simp only [e1, e2]

end Cert.KernelIdeal.BlockValue

end
-- ==== Proof.AttentionSpec.lean ====
/-
  Multi-head attention over arrays `[4, 2048, 1024]` (batch, position, lane), sixteen heads of sixty-four lanes each,
  as ONE function of the three argument arrays, index by index — in the two arrangements of Proof/SoftmaxRow.lean.

  The entry at (batch `b`, position `s`, lane `e`) belongs to head `h = e / 64`. Its query vector is the sixty-four
  lanes `h·64 + d` of the query array at `(b, s)`; position `t`'s key vector the same lanes of the key array at `(b, t)`;
  position `t`'s value the value array at `(b, t, e)`. The entry is the softmax-weighted mean of those values over the
  2048 positions, the weights the softmax of the query–key products scaled by `1/8 = 1/√64`.

  `scaledQueryForm c` multiplies the query by `c` first and divides once at the end; `dividedScoreForm r` divides the
  products by `r` and normalises every weight before applying it. On finite arrays, at `c = 1/8` and `r = 8`, they are
  the same array (`forms_agree`).
-/
import proofs.«175225_j197568495758_2_alg».proof.Proof.SoftmaxRow
import Idealize.ShloMosaic.Lib.ValueIdx

noncomputable section

namespace Cert.AttentionSpec

open Idealize.ShloMosaic Idealize.ShloMosaic.ValueIdx Cert.SoftmaxRow

/-- An argument or result array: batch × position × lane. -/
abbrev Arr : Type := (⟨3, ![4, 2048, 1024]⟩ : Shape).Idx → EReal

/-- The head a lane belongs to. -/
def headOf (e : Fin 1024) : Fin 16 := ⟨e.val / 64, by have := e.isLt; omega⟩

/-- A lane's place inside its head. -/
def withinHead (e : Fin 1024) : Fin 64 := ⟨e.val % 64, by omega⟩

/-- Lane `d` of head `h`. -/
def lane (h : Fin 16) (d : Fin 64) : Fin 1024 := ⟨h.val * 64 + d.val, by have := h.isLt; have := d.isLt; omega⟩

theorem lane_headOf_withinHead (e : Fin 1024) : lane (headOf e) (withinHead e) = e :=
  Fin.ext (by show e.val / 64 * 64 + e.val % 64 = e.val; omega)

/-- Head `h`'s query vector at batch `b`, position `s`. -/
def queryRow (Q : Arr) (b : Fin 4) (s : Fin 2048) (h : Fin 16) : Fin 64 → EReal := fun d => Q (ix3 b s (lane h d))

/-- Head `h`'s key vectors at batch `b`, one per position. -/
def keyRows (K : Arr) (b : Fin 4) (h : Fin 16) : Fin 2048 → Fin 64 → EReal := fun t d => K (ix3 b t (lane h d))

/-- The value array's column at batch `b`, lane `e`, one entry per position. -/
def valueColumn (V : Arr) (b : Fin 4) (e : Fin 1024) : Fin 2048 → EReal := fun t => V (ix3 b t e)

/-- Attention with the scale `c` multiplied into the query and one division at the end. -/
def scaledQueryEntry (c : EReal) (Q K V : Arr) (b : Fin 4) (s : Fin 2048) (e : Fin 1024) : EReal :=
  weightedThenNormalized (scoreScaledQuery c (queryRow Q b s (headOf e)) (keyRows K b (headOf e))) (valueColumn V b e)

/-- Attention with the products divided by `r` and the weights normalised before they are applied. -/
def dividedScoreEntry (r : EReal) (Q K V : Arr) (b : Fin 4) (s : Fin 2048) (e : Fin 1024) : EReal :=
  normalizedThenWeighted (scoreDivided r (queryRow Q b s (headOf e)) (keyRows K b (headOf e))) (valueColumn V b e)

def scaledQueryForm (c : EReal) (Q K V : Arr) : Arr := fun i => scaledQueryEntry c Q K V (i 0) (i 1) (i 2)

def dividedScoreForm (r : EReal) (Q K V : Arr) : Arr := fun i => dividedScoreEntry r Q K V (i 0) (i 1) (i 2)

/-- On arrays of reals the two arrangements give the same entry. -/
theorem entries_agree_real (Q K V : (⟨3, ![4, 2048, 1024]⟩ : Shape).Idx → ℝ) (b : Fin 4) (s : Fin 2048) (e : Fin 1024) :
    scaledQueryEntry (((1 / 8 : ℝ) : ℝ) : EReal) (fun j => (Q j : EReal)) (fun j => (K j : EReal)) (fun j => (V j : EReal)) b s e
      = dividedScoreEntry ((8 : ℝ) : EReal) (fun j => (Q j : EReal)) (fun j => (K j : EReal)) (fun j => (V j : EReal)) b s e := by
  haveI : Nonempty (Fin 2048) := ⟨⟨0, by decide⟩⟩
  unfold scaledQueryEntry dividedScoreEntry
  have hs : scoreDivided ((8 : ℝ) : EReal) (queryRow (fun j => (Q j : EReal)) b s (headOf e)) (keyRows (fun j => (K j : EReal)) b (headOf e))
      = fun t => (((∑ d, Q (ix3 b s (lane (headOf e) d)) * K (ix3 b t (lane (headOf e) d))) * (1 / 8) : ℝ) : EReal) :=
    funext fun t => scoreDivided_real (fun d => Q (ix3 b s (lane (headOf e) d))) (fun t d => K (ix3 b t (lane (headOf e) d))) t
  have hs' : scoreScaledQuery (((1 / 8 : ℝ) : ℝ) : EReal) (queryRow (fun j => (Q j : EReal)) b s (headOf e)) (keyRows (fun j => (K j : EReal)) b (headOf e))
      = fun t => (((∑ d, Q (ix3 b s (lane (headOf e) d)) * K (ix3 b t (lane (headOf e) d))) * (1 / 8) : ℝ) : EReal) :=
    funext fun t => (score_forms_agree (fun d => Q (ix3 b s (lane (headOf e) d))) (fun t d => K (ix3 b t (lane (headOf e) d))) t).trans
      (scoreDivided_real (fun d => Q (ix3 b s (lane (headOf e) d))) (fun t d => K (ix3 b t (lane (headOf e) d))) t)
  rw [hs, hs']
  exact result_forms_agree _ (fun t => V (ix3 b t e))

/-- On finite arrays the two arrangements are the same array. -/
theorem forms_agree (Q K V : Arr) (hQ : ∀ j, Q j ≠ ⊤ ∧ Q j ≠ ⊥) (hK : ∀ j, K j ≠ ⊤ ∧ K j ≠ ⊥) (hV : ∀ j, V j ≠ ⊤ ∧ V j ≠ ⊥) :
    scaledQueryForm (((1 / 8 : ℝ) : ℝ) : EReal) Q K V = dividedScoreForm ((8 : ℝ) : EReal) Q K V := by
  have eQ : (fun j => (((Q j).toReal : ℝ) : EReal)) = Q := funext fun j => EReal.coe_toReal (hQ j).1 (hQ j).2
  have eK : (fun j => (((K j).toReal : ℝ) : EReal)) = K := funext fun j => EReal.coe_toReal (hK j).1 (hK j).2
  have eV : (fun j => (((V j).toReal : ℝ) : EReal)) = V := funext fun j => EReal.coe_toReal (hV j).1 (hV j).2
  funext i
  have h := entries_agree_real (fun j => (Q j).toReal) (fun j => (K j).toReal) (fun j => (V j).toReal) (i 0) (i 1) (i 2)
  rw [eQ, eK, eV] at h
  exact h

end Cert.AttentionSpec

end
-- ==== Proof.KernelArray.lean ====
/-
  From blocks to the array: after the kernel's run the result array holds attention in the scaled-query arrangement
  (Proof/AttentionSpec.lean's `scaledQueryForm`) of the three argument arrays.

  The grid has a point per (batch `b`, pair of heads `g`, tile of 512 query positions `i`). At a point the query
  block is rows `i·512 … i·512 + 511`, lanes `g·128 … g·128 + 127` of batch `b` of the query array; the key and value
  blocks are ALL 2048 rows, the same lanes, of the same batch; the result block sits where the query block does. So
  entry `(0, r, l)` of the block written back is entry `(b, i·512 + r, g·128 + l)` of the whole-array function: the
  head of lane `g·128 + l` starts at lane `g·128 + l / 64 · 64`, which is where the body's head of block lane `l` starts.
  The result blocks tile the array, so the array ends holding that function everywhere.
-/
import proofs.«175225_j197568495758_2_alg».proof.Proof.Gen.KernelIdeal.Value
import proofs.«175225_j197568495758_2_alg».proof.Proof.KernelBlock
import proofs.«175225_j197568495758_2_alg».proof.Proof.AttentionSpec

noncomputable section

namespace Cert.KernelIdeal.ArrayValue

open Cert.KernelIdeal Cert.KernelIdeal.Gen Cert.KernelIdeal.HeadValue Cert.KernelIdeal.BlockValue
open Idealize.ShloMosaic Idealize.ShloMosaic.TcCoe Idealize.SL.Sem Idealize.ShloMosaic.ValueIdx
open Cert.SoftmaxRow Cert.AttentionSpec
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The printed index maps, decided over the grid: the query block moves with the result block; the key and value
    blocks share its batch and lanes and always start at row 0; and the result's block indices stay in range. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) ≤ 3 ∧ win0_3.index t (1 : Fin 3) ≤ 3 ∧ win0_3.index t (2 : Fin 3) ≤ 7 :=
  (by decide +kernel : ∀ t : Fin grid0.N, _)

/-- Every block of the result array is SOME point's. -/
theorem index_onto : ∀ (q0 : Fin 4) (q1 : Fin 4) (q2 : Fin 8), ∃ t : Fin cfg0.N, win0_3.index t = ![q0.val, q1.val, q2.val] :=
  (by decide +kernel : ∀ (q0 : Fin 4) (q1 : Fin 4) (q2 : Fin 8), ∃ t : Fin grid0.N, win0_3.index t = ![q0.val, q1.val, q2.val])

/-! ## The input blocks read where the arrays hold them -/

theorem queryBlock_read (c : Dev nD) (t : Fin cfg0.N) (r : Fin 512) (l : Fin 128) (i : S4x2048x1024.Idx)
    (h0 : (i 0).val = win0_0.index t (0 : Fin 3)) (h1 : (i 1).val = win0_0.index t (1 : Fin 3) * 512 + r.val)
    (h2 : (i 2).val = win0_0.index t (2 : Fin 3) * 128 + l.val) :
    iblk m c 0 t (ix3 (0 : Fin 1) r l) = V m c main_arg0 i := by
  show V m c main_arg0 (((cfg0.win 0).blk t).view.emb (ix3 (0 : Fin 1) r l)) = V m c main_arg0 i
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 128 + 1 * l.val = (i 2).val; omega

theorem keyBlock_read (c : Dev nD) (t : Fin cfg0.N) (r : Fin 2048) (l : Fin 128) (i : S4x2048x1024.Idx)
    (h0 : (i 0).val = win0_1.index t (0 : Fin 3)) (h1 : (i 1).val = win0_1.index t (1 : Fin 3) * 2048 + r.val)
    (h2 : (i 2).val = win0_1.index t (2 : Fin 3) * 128 + l.val) :
    iblk m c 1 t (ix3 (0 : Fin 1) r l) = V m c main_arg1 i := by
  show V m c main_arg1 (((cfg0.win 1).blk t).view.emb (ix3 (0 : Fin 1) r l)) = V m c main_arg1 i
  refine congrArg _ (funext fun a => Fin.ext ?_)
  match a with
  | ⟨0, _⟩ => show win0_1.index t (0 : Fin 3) * 1 + 1 * 0 = (i 0).val; omega
  | ⟨1, _⟩ => show win0_1.index t (1 : Fin 3) * 2048 + 1 * r.val = (i 1).val; omega
  | ⟨2, _⟩ => show win0_1.index t (2 : Fin 3) * 128 + 1 * l.val = (i 2).val; omega

theorem valueBlock_read (c : Dev nD) (t : Fin cfg0.N) (r : Fin 2048) (l : Fin 128) (i : S4x2048x1024.Idx)
    (h0 : (i 0).val = win0_2.index t (0 : Fin 3)) (h1 : (i 1).val = win0_2.index t (1 : Fin 3) * 2048 + r.val)
    (h2 : (i 2).val = win0_2.index t (2 : Fin 3) * 128 + l.val) :
    iblk m c 2 t (ix3 (0 : Fin 1) r l) = V m c main_arg2 i := by
  show V m c main_arg2 (((cfg0.win 2).blk t).view.emb (ix3 (0 : Fin 1) r l)) = V m c main_arg2 i
  refine congrArg _ (funext fun a => Fin.ext ?_)
  match a with
  | ⟨0, _⟩ => show win0_2.index t (0 : Fin 3) * 1 + 1 * 0 = (i 0).val; omega
  | ⟨1, _⟩ => show win0_2.index t (1 : Fin 3) * 2048 + 1 * r.val = (i 1).val; omega
  | ⟨2, _⟩ => show win0_2.index t (2 : Fin 3) * 128 + 1 * l.val = (i 2).val; omega

/-! ## What a point writes back -/

/-- WHAT POINT `t` WRITES BACK is block `t` of the whole-array function of the argument arrays. -/
theorem flushed_eq (c : Dev nD) (t : Fin cfg0.N) :
    (dats m 0 c).flushed 3 t
      = ((cfg0.win 3).blk t).view.read (Elt Ideal)
          (scaledQueryForm queryScale (V m c main_arg0) (V m c main_arg1) (V m c main_arg2)) := by
  rw [Value.flushed3]
  unfold out0_3
  rw [View.canon_unit_zero zeroOffsets]
  simp only [View.ld_unit_zero (S := S1x512x128) zeroOffsets, View.ld_unit_zero (S := S1x2048x128) zeroOffsets]
  obtain ⟨e00, e01, e02, e10, e11, e12, e20, e21, e22, b0, b1, b2⟩ := index_maps t
  funext j
  obtain ⟨u, r, l, rfl⟩ : ∃ (u : Fin 1) (r : Fin 512) (l : Fin 128), j = ix3 u r l := ⟨j 0, j 1, j 2, eq_ix3 j⟩
  have hu : u.val = 0 := by omega
  have hr := r.isLt
  have hl := l.isLt
  have hemb : ((cfg0.win 3).blk t).view.emb (ix3 u r l)
      = ix3 (⟨win0_3.index t (0 : Fin 3), by omega⟩ : Fin 4) (⟨win0_3.index t (1 : Fin 3) * 512 + r.val, by omega⟩ : Fin 2048)
          (⟨win0_3.index t (2 : Fin 3) * 128 + l.val, by omega⟩ : Fin 1024) :=
    funext fun a => Fin.ext (by
      match a with
      | ⟨0, _⟩ => show win0_3.index t (0 : Fin 3) * 1 + 1 * u.val = win0_3.index t (0 : Fin 3); omega
      | ⟨1, _⟩ => show win0_3.index t (1 : Fin 3) * 512 + 1 * r.val = win0_3.index t (1 : Fin 3) * 512 + r.val; omega
      | ⟨2, _⟩ => show win0_3.index t (2 : Fin 3) * 128 + 1 * l.val = win0_3.index t (2 : Fin 3) * 128 + l.val; omega)
  show bodyResult (iblk m c 0 t) (iblk m c 1 t) (iblk m c 2 t) (ix3 u r l)
    = scaledQueryForm queryScale (V m c main_arg0) (V m c main_arg1) (V m c main_arg2) (((cfg0.win 3).blk t).view.emb (ix3 u r l))
  rw [bodyResult_apply, hemb]
  show _ = scaledQueryEntry queryScale (V m c main_arg0) (V m c main_arg1) (V m c main_arg2)
    (⟨win0_3.index t (0 : Fin 3), by omega⟩ : Fin 4) (⟨win0_3.index t (1 : Fin 3) * 512 + r.val, by omega⟩ : Fin 2048)
    (⟨win0_3.index t (2 : Fin 3) * 128 + l.val, by omega⟩ : Fin 1024)
  unfold scaledQueryEntry queryRow keyRows valueColumn
  have fq : (fun d : Fin 64 => iblk m c 0 t (ix3 (0 : Fin 1) r (headLane l d)))
      = fun d : Fin 64 => V m c main_arg0 (ix3 (⟨win0_3.index t (0 : Fin 3), by omega⟩ : Fin 4)
          (⟨win0_3.index t (1 : Fin 3) * 512 + r.val, by omega⟩ : Fin 2048)
          (lane (headOf (⟨win0_3.index t (2 : Fin 3) * 128 + l.val, by omega⟩ : Fin 1024)) d)) :=
    funext fun d => queryBlock_read m c t r (headLane l d) _ (by show win0_3.index t (0 : Fin 3) = _; omega)
      (by show win0_3.index t (1 : Fin 3) * 512 + r.val = _; omega)
      (by
        have hd := d.isLt
        show (win0_3.index t (2 : Fin 3) * 128 + l.val) / 64 * 64 + d.val = win0_0.index t (2 : Fin 3) * 128 + (l.val / 64 * 64 + d.val)
        omega)
  have fk : (fun (t' : Fin 2048) (d : Fin 64) => iblk m c 1 t (ix3 (0 : Fin 1) t' (headLane l d)))
      = fun (t' : Fin 2048) (d : Fin 64) => V m c main_arg1 (ix3 (⟨win0_3.index t (0 : Fin 3), by omega⟩ : Fin 4) t'
          (lane (headOf (⟨win0_3.index t (2 : Fin 3) * 128 + l.val, by omega⟩ : Fin 1024)) d)) :=
    funext fun t' => funext fun d => keyBlock_read m c t t' (headLane l d) _ (by show win0_3.index t (0 : Fin 3) = _; omega)
      (by show t'.val = _; omega)
      (by
        have hd := d.isLt
        show (win0_3.index t (2 : Fin 3) * 128 + l.val) / 64 * 64 + d.val = win0_1.index t (2 : Fin 3) * 128 + (l.val / 64 * 64 + d.val)
        omega)
  have fv : (fun t' : Fin 2048 => iblk m c 2 t (ix3 (0 : Fin 1) t' l))
      = fun t' : Fin 2048 => V m c main_arg2 (ix3 (⟨win0_3.index t (0 : Fin 3), by omega⟩ : Fin 4) t'
          (⟨win0_3.index t (2 : Fin 3) * 128 + l.val, by omega⟩ : Fin 1024)) :=
    funext fun t' => valueBlock_read m c t t' l _ (by show win0_3.index t (0 : Fin 3) = _; omega)
      (by show t'.val = _; omega)
      (by show win0_3.index t (2 : Fin 3) * 128 + l.val = _; omega)
  rw [fq, fk, fv]

/-! ## The result blocks tile the array -/

/-- An index of the array is in point `t`'s block iff each coordinate is in the block's range on its axis. -/
theorem mem_block (t : Fin cfg0.N) (i : S4x2048x1024.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0).slice (win0_3.rect t)).set ↔ _
  rw [View.set_slice_whole, Rect.mem_set_unit]
  exact Iff.rfl

/-- Every index of the result array is in the block of the point at its batch, its tile of rows and its pair of heads. -/
theorem covered (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩ ⟨(i 2).val / 128, by omega⟩
  have q0 : win0_3.index t (0 : Fin 3) = (i 0).val := congrFun ht 0
  have q1 : win0_3.index t (1 : Fin 3) = (i 1).val / 512 := congrFun ht 1
  have q2 : win0_3.index t (2 : Fin 3) = (i 2).val / 128 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-! ## The array after the run, and the run -/

/-- THE RESULT ARRAY after the run is attention, in the scaled-query arrangement, of the argument arrays. -/
theorem final (c : Dev nD) :
    (dats m 0 c).arrAt 3 cfg0.N
      = scaledQueryForm queryScale (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run, with the result array named. -/
theorem run : θ_run defs (onTc (τ := τ) (main (F := Ideal))) ⟨m, fun _ => 0, ρ⟩ fun r => ∀ c : Dev nD,
      r.2.mem ((c : Thread nD τ).loc main_v0)
        = scaledQueryForm queryScale (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference's result, index by index, is attention in the divided-score arrangement (Proof/AttentionSpec.lean's
  `dividedScoreForm`) with the divisor `√64`.

  The reference reshapes each argument `[4, 2048, 1024]` to `[4, 2048, 16, 64]` and swaps the middle axes, so that entry
  `(b, h, s, d)` of the re-laid array is entry `(b, s, h·64 + d)` of the argument. Then, stage by stage, at explicit
  coordinates: the scores (a product over the sixty-four lanes of a head, divided by `√64`), their maximum over the
  positions (a fold of `max` from `−∞`; the extra `max` with `−∞` in front changes nothing), the weights `exp (score − max)`,
  their sum, the normalised weights, and the product with the values; the result is re-laid back to `[4, 2048, 1024]`.
-/
import proofs.«175225_j197568495758_2_alg».proof.Proof.Gen.ReferenceIdeal.Read
import proofs.«175225_j197568495758_2_alg».proof.Proof.AttentionSpec
import proofs.«175225_j197568495758_2_alg».proof.Proof.Consts

noncomputable section

namespace Cert.ReferenceIdeal.RefValue

open Cert.ReferenceIdeal Cert.ReferenceIdeal.Gen Cert.ReferenceIdeal.Read Idealize.ShloMosaic Idealize.ShloMosaic.ValueIdx
open Cert.SoftmaxRow Cert.AttentionSpec

/-- The divisor the reference computes: `√64`. -/
abbrev rootOfHeadWidth : EReal := Ideal.sqrt (Ideal.ofBits .f32 0x42800000#32)

/-- The score of query position `s` against key position `t` in head `h` of batch `b`. -/
theorem scores (x0 x1 : Arr) (b : Fin 4) (h : Fin 16) (s t : Fin 2048) :
    val_main_v9 (F := Ideal) x0 x1 (ix4 b h s t)
      = scoreDivided rootOfHeadWidth (queryRow x0 b s h) (keyRows x1 b h) t := by
  have hb := b.isLt; have hh := h.isLt; have hs := s.isLt; have ht := t.isLt
  have e0 : ∀ k : Fin 64, idx_main_v0 (idx_main_v1 (lidx_main_v6 (ix4 b h s t) k)) = ix3 b s (lane h k) := fun k =>
    funext fun a => Fin.ext (by
      have hk := k.isLt
      match a with
      | ⟨0, _⟩ => show (((b.val * 2048 + s.val) * 16 + h.val) * 64 + k.val) / 2097152 = b.val; omega
      | ⟨1, _⟩ => show (((b.val * 2048 + s.val) * 16 + h.val) * 64 + k.val) / 1024 % 2048 = s.val; omega
      | ⟨2, _⟩ => show (((b.val * 2048 + s.val) * 16 + h.val) * 64 + k.val) % 1024 = h.val * 64 + k.val; omega)
  have e1 : ∀ k : Fin 64, idx_main_v2 (idx_main_v3 (ridx_main_v6 (ix4 b h s t) k)) = ix3 b t (lane h k) := fun k =>
    funext fun a => Fin.ext (by
      have hk := k.isLt
      match a with
      | ⟨0, _⟩ => show (((b.val * 2048 + t.val) * 16 + h.val) * 64 + k.val) / 2097152 = b.val; omega
      | ⟨1, _⟩ => show (((b.val * 2048 + t.val) * 16 + h.val) * 64 + k.val) / 1024 % 2048 = t.val; omega
      | ⟨2, _⟩ => show (((b.val * 2048 + t.val) * 16 + h.val) * 64 + k.val) % 1024 = h.val * 64 + k.val; omega)
  rw [val_main_v9_apply, val_main_v6_apply, val_main_v8_apply, val_main_v7_apply, val_main_cst_apply]
  simp only [val_main_v1_apply, val_main_v0_apply, val_main_v3_apply, val_main_v2_apply, e0, e1]
  rfl

/-- The `Reduces` witness that names the position inserted by the reductions over the last axis. -/
theorem reducesLast : S4x16x2048x2048.Reduces [3] S4x16x2048 := by decide

/-- The host's maximum over the last axis, read at `(b, h, s)`: the fold of `max` from the initial value over the
    positions. -/
theorem hostMax_lastAxis (y : FVec Ideal S4x16x2048x2048 .f32) (init : FVec Ideal S_ .f32)
    (h' : S4x16x2048x2048.ReducesTo [3] S4x16x2048) (hr : S4x16x2048x2048.Reduces [3] S4x16x2048) (hu : 0 < S_.numel)
    (b : Fin 4) (h : Fin 16) (s : Fin 2048) :
    Host.reduce FloatOps.maximumf y init h' hu (ix3 b h s)
      = Finset.univ.fold max (init (Shape.Idx.first hu)) (fun t : Fin 2048 => y (ix4 b h s t)) := by
  rw [Host.reduce_eq_fold_single FloatOps.maximumf y init h' hr hu]
  have hf : (y ∘ hr.lift (ix3 b h s)) = fun t : Fin 2048 => y (ix4 b h s t) :=
    funext fun t => congrArg y (funext fun a => Fin.ext (by
      match a with | ⟨0, _⟩ => rfl | ⟨1, _⟩ => rfl | ⟨2, _⟩ => rfl | ⟨3, _⟩ => rfl))
  exact congrArg (fun f => Finset.fold max (init (Shape.Idx.first hu)) f (Finset.univ : Finset (Fin 2048))) hf

/-- The maximum of a query position's scores over the key positions. -/
theorem rowMax (x0 x1 : Arr) (b : Fin 4) (h : Fin 16) (s : Fin 2048) :
    val_main_v12 (F := Ideal) x0 x1 (ix3 b h s)
      = Finset.univ.fold max ⊥ (fun t : Fin 2048 => val_main_v9 (F := Ideal) x0 x1 (ix4 b h s t)) := by
  rw [val_main_v12_apply, val_main_v11_apply, val_main_cst_1_apply]
  unfold val_main_v10
  refine (congrArg (FloatOps.maximumf (F := Ideal) (φ := .f32) (FloatOps.ofBits .f32 0xFF800000#32))
    (hostMax_lastAxis (val_main_v9 (F := Ideal) x0 x1) (val_main_cst_0 (F := Ideal))
      reducesTo_S4x16x2048x2048_S4x16x2048_d3 reducesLast h_S_ b h s)).trans ?_
  rw [val_main_cst_0_apply]
  show max (Ideal.ofBits .f32 0xFF800000#32) (Finset.univ.fold max (Ideal.ofBits .f32 0xFF800000#32) _) = _
  rw [Cert.AttentionConsts.ofBits_neg_inf, max_bot_left]

/-- A weight: `exp (score − row maximum)`. -/
theorem weight (x0 x1 : Arr) (b : Fin 4) (h : Fin 16) (s t : Fin 2048) :
    val_main_v16 (F := Ideal) x0 x1 (ix4 b h s t)
      = Ideal.exp (val_main_v9 (F := Ideal) x0 x1 (ix4 b h s t) - val_main_v12 (F := Ideal) x0 x1 (ix3 b h s)) := by
  have e : idx_main_v13 (idx_main_v14 (ix4 b h s t)) = ix3 b h s :=
    funext fun a => Fin.ext (by match a with | ⟨0, _⟩ => rfl | ⟨1, _⟩ => rfl | ⟨2, _⟩ => rfl)
  rw [val_main_v16_apply, val_main_v15_apply, val_main_v14_apply, val_main_v13_apply, e]
  rfl

/-- The sum of a query position's weights. -/
theorem weightSum (x0 x1 : Arr) (b : Fin 4) (h : Fin 16) (s : Fin 2048) :
    val_main_v17 (F := Ideal) x0 x1 (ix3 b h s) = ∑ t : Fin 2048, val_main_v16 (F := Ideal) x0 x1 (ix4 b h s t) := by
  rw [val_main_v17_apply, val_main_cst_2_apply]
  show Ideal.ofBits .f32 0x00000000#32 + _ = _
  rw [Ideal.ofBits_zero_f32, zero_add]
  refine Finset.sum_congr rfl fun t _ => congrArg _ (funext fun a => Fin.ext (by
    match a with | ⟨0, _⟩ => rfl | ⟨1, _⟩ => rfl | ⟨2, _⟩ => rfl | ⟨3, _⟩ => rfl))

/-- A normalised weight. -/
theorem normalisedWeight (x0 x1 : Arr) (b : Fin 4) (h : Fin 16) (s t : Fin 2048) :
    val_main_v20 (F := Ideal) x0 x1 (ix4 b h s t)
      = Ideal.div (val_main_v16 (F := Ideal) x0 x1 (ix4 b h s t)) (val_main_v17 (F := Ideal) x0 x1 (ix3 b h s)) := by
  have e : idx_main_v18 (idx_main_v19 (ix4 b h s t)) = ix3 b h s :=
    funext fun a => Fin.ext (by match a with | ⟨0, _⟩ => rfl | ⟨1, _⟩ => rfl | ⟨2, _⟩ => rfl)
  rw [val_main_v20_apply, val_main_v19_apply, val_main_v18_apply, e]
  rfl

/-- The weighted values, before the result is re-laid. -/
theorem weightedValues (x0 x1 x2 : Arr) (b : Fin 4) (h : Fin 16) (s : Fin 2048) (d : Fin 64) :
    val_main_v21 (F := Ideal) x0 x1 x2 (ix4 b h s d)
      = ∑ t : Fin 2048, val_main_v20 (F := Ideal) x0 x1 (ix4 b h s t) * x2 (ix3 b t (lane h d)) := by
  have hb := b.isLt; have hh := h.isLt; have hd := d.isLt
  rw [val_main_v21_apply]
  refine Finset.sum_congr rfl fun t _ => ?_
  have ht := t.isLt
  have el : lidx_main_v21 (ix4 b h s d) t = ix4 b h s t :=
    funext fun a => Fin.ext (by match a with | ⟨0, _⟩ => rfl | ⟨1, _⟩ => rfl | ⟨2, _⟩ => rfl | ⟨3, _⟩ => rfl)
  have er : idx_main_v4 (idx_main_v5 (ridx_main_v21 (ix4 b h s d) t)) = ix3 b t (lane h d) :=
    funext fun a => Fin.ext (by
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show (((b.val * 2048 + t.val) * 16 + h.val) * 64 + d.val) % 1024 = h.val * 64 + d.val; omega)
  rw [el, val_main_v5_apply, val_main_v4_apply, er]

/-- The result at `(b, s, e)` is the weighted values at head `e / 64`, lane `e % 64` of that head. -/
theorem relaid (x0 x1 x2 : Arr) (b : Fin 4) (s : Fin 2048) (e : Fin 1024) :
    val_main_v23 (F := Ideal) x0 x1 x2 (ix3 b s e)
      = val_main_v21 (F := Ideal) x0 x1 x2 (ix4 b (headOf e) s (withinHead e)) := by
  have hb := b.isLt; have hs := s.isLt; have he := e.isLt
  have ei : idx_main_v22 (idx_main_v23 (ix3 b s e)) = ix4 b (headOf e) s (withinHead e) :=
    funext fun a => Fin.ext (by
      match a with
      | ⟨0, _⟩ => show ((b.val * 2048 + s.val) * 1024 + e.val) / 2097152 = b.val; omega
      | ⟨1, _⟩ => show ((b.val * 2048 + s.val) * 1024 + e.val) / 64 % 16 = e.val / 64; omega
      | ⟨2, _⟩ => show ((b.val * 2048 + s.val) * 1024 + e.val) / 1024 % 2048 = s.val; omega
      | ⟨3, _⟩ => show ((b.val * 2048 + s.val) * 1024 + e.val) % 64 = e.val % 64; omega)
  rw [val_main_v23_apply, val_main_v22_apply, ei]

/-- The reference's result array is attention in the divided-score arrangement, the divisor `√64`. -/
theorem result_is_dividedScoreForm (x0 x1 x2 : Arr) :
    val_main_v23 (F := Ideal) x0 x1 x2 = dividedScoreForm rootOfHeadWidth x0 x1 x2 := by
  funext i
  obtain ⟨b, s, e, rfl⟩ : ∃ (b : Fin 4) (s : Fin 2048) (e : Fin 1024), i = ix3 b s e := ⟨i 0, i 1, i 2, eq_ix3 i⟩
  show _ = dividedScoreEntry rootOfHeadWidth x0 x1 x2 b s e
  rw [relaid, weightedValues, lane_headOf_withinHead]
  unfold dividedScoreEntry normalizedThenWeighted valueColumn
  refine Finset.sum_congr rfl fun t _ => ?_
  rw [normalisedWeight, weightSum]
  simp only [weight, rowMax, scores]

end Cert.ReferenceIdeal.RefValue

end
-- ==== Proof.FiniteInputs.lean ====
/-
  What the precondition says of the argument arrays: every entry is a real number.

  The precondition is the conjunction, over the three arrays, of "every entry's absolute value is below `+∞`". An
  extended real whose absolute value `max x (−x)` is below `+∞` is neither infinity: at `+∞` the absolute value is
  `+∞`, at `−∞` it is `max (−∞) (+∞) = +∞`.
-/
import proofs.«175225_j197568495758_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value compares below the pattern of `+∞` is neither infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨EReal.coe_ne_top r, EReal.coe_ne_bot r⟩

/-- Under the precondition all three argument arrays hold reals only. -/
theorem all_finite (a0 a1 a2 : FVec Ideal S4x2048x1024 .f32) (h : fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact finite_of_abs_lt _ (Host.reduce_andi_all _ _ _ _ _ h0' i)
  · exact finite_of_abs_lt _ (Host.reduce_andi_all _ _ _ _ _ h1 i)
  · exact finite_of_abs_lt _ (Host.reduce_andi_all _ _ _ _ _ h2 i)

end Cert.Pre_finite_inputs.Finite

end
-- ==== Proof.lean ====
/-
  The kernel — scaled-dot-product attention over `[4, 2048, 1024]` arrays, sixteen heads of sixty-four lanes, run two
  heads at a time on blocks of 512 query positions — against the plain reference, on the extended reals.

  Both programs compute, at batch `b`, position `s`, lane `e` (head `h = e / 64`), the softmax-weighted mean over the
  2048 key positions of the value array's column `(b, ·, e)`, the weights the softmax of the products of the query
  vector at `(b, s)` with the key vectors, over the head's lanes, scaled by `1/8`. They differ in the arrangement:
  the kernel multiplies the query by `0.125` before the product and divides ONCE by the sum of the weights after
  they have been applied to the values; the reference divides the products by `√64` and normalises every weight
  before applying it. `0.125` is exactly `1/8` and `√64 = 8`; on real data the two score forms are the same reals, the
  maximum of real scores is real, every weight is a positive real and so is their sum, and dividing a finite sum by
  it is dividing each term. That last step is distributivity, which fails at the infinities: it is where the
  precondition (every argument entry finite) is used.

  The pieces: Proof/SoftmaxRow.lean (one row, the two arrangements, the law), Proof/AttentionSpec.lean (the two
  whole-array functions, equal on finite arrays), Proof/ReferenceValue.lean (the reference is the divided-score
  function), Proof/KernelHead.lean and Proof/KernelBlock.lean (the body's stored block is the scaled-query function
  of its loaded blocks), Proof/KernelArray.lean (the blocks written back tile the array), Proof/FiniteInputs.lean
  (the precondition read entry by entry), Proof/Consts.lean (the three constants).
-/
import proofs.«175225_j197568495758_2_alg».proof.Defs
import proofs.«175225_j197568495758_2_alg».proof.Proof.Gen.Kernel
import proofs.«175225_j197568495758_2_alg».proof.Proof.Gen.Kernel.Skeleton
import proofs.«175225_j197568495758_2_alg».proof.Proof.Gen.Kernel.Launch
import proofs.«175225_j197568495758_2_alg».proof.Proof.Gen.Kernel.Points
import proofs.«175225_j197568495758_2_alg».proof.Proof.Gen.Kernel.Frame
import proofs.«175225_j197568495758_2_alg».proof.Proof.Gen.KernelIdeal
import proofs.«175225_j197568495758_2_alg».proof.Proof.Gen.KernelIdeal.Skeleton
import proofs.«175225_j197568495758_2_alg».proof.Proof.Gen.KernelIdeal.Launch
import proofs.«175225_j197568495758_2_alg».proof.Proof.Gen.KernelIdeal.Points
import proofs.«175225_j197568495758_2_alg».proof.Proof.Gen.KernelIdeal.Frame
import proofs.«175225_j197568495758_2_alg».proof.Proof.Gen.ReferenceIdeal
import proofs.«175225_j197568495758_2_alg».proof.Proof.Gen.Pre_finite_inputs
import proofs.«175225_j197568495758_2_alg».proof.Proof.Gen.KernelIdeal.Value
import proofs.«175225_j197568495758_2_alg».proof.Proof.Gen.ReferenceIdeal.Run
import proofs.«175225_j197568495758_2_alg».proof.Proof.Gen.ReferenceIdeal.Read
import proofs.«175225_j197568495758_2_alg».proof.Proof.KernelArray
import proofs.«175225_j197568495758_2_alg».proof.Proof.ReferenceValue
import proofs.«175225_j197568495758_2_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at one function of the arguments: the kernel's at the scaled-query
    arrangement, the reference's at the divided-score arrangement, equal because the arguments are finite. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v23_eq,
    Cert.ReferenceIdeal.RefValue.result_is_dividedScoreForm]
  obtain ⟨h0, h1, h2⟩ := Cert.Pre_finite_inputs.Finite.all_finite _ _ _ (hpre c)
  have e := Cert.AttentionSpec.forms_agree _ _ _ h0 h1 h2
  rw [← Cert.AttentionConsts.ofBits_eighth, ← Cert.AttentionConsts.sqrt_64] at e
  exact e.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
